-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S8192x1024 : Shape := ⟨2, ![8192, 1024]⟩
abbrev S8192x2048 : Shape := ⟨2, ![8192, 2048]⟩
abbrev S8192 : Shape := ⟨1, ![8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_arg6 : FVec F S8192 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x1024 .f32) (main_arg1 : FVec F S4096x2048 .f32) (main_arg2 : FVec F S4096x2048 .f32) (main_arg3 : FVec F S8192x1024 .f32) (main_arg4 : FVec F S8192x2048 .f32) (main_arg5 : FVec F S8192 .f32) (main_arg6 : FVec F S8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Kernel.lean ====
abbrev S4096x1024 : Shape := ⟨2, ![4096, 1024]⟩
abbrev S4096x2048 : Shape := ⟨2, ![4096, 2048]⟩
abbrev S8192x1024 : Shape := ⟨2, ![8192, 1024]⟩
abbrev S8192x2048 : Shape := ⟨2, ![8192, 2048]⟩
abbrev S8192 : Shape := ⟨1, ![8192]⟩
abbrev S2048x1024 : Shape := ⟨2, ![2048, 1024]⟩
abbrev S2048x2048 : Shape := ⟨2, ![2048, 2048]⟩
abbrev S2048 : Shape := ⟨1, ![2048]⟩
abbrev S1x2048 : Shape := ⟨2, ![1, 2048]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S1024x256 : Shape := ⟨2, ![1024, 256]⟩
abbrev S1x256 : Shape := ⟨2, ![1, 256]⟩

abbrev nBuf : Space → Nat
  | .hbm => 36
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S8192x1024, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S8192, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S4096x1024, .bf16⟩
  | .hbm, ⟨25, _⟩ => ⟨S4096x2048, .bf16⟩
  | .hbm, ⟨26, _⟩ => ⟨S2048x1024, .bf16⟩
  | .hbm, ⟨27, _⟩ => ⟨S2048x1024, .bf16⟩
  | .hbm, ⟨28, _⟩ => ⟨S2048x1024, .bf16⟩
  | .hbm, ⟨29, _⟩ => ⟨S2048x1024, .bf16⟩
  | .hbm, ⟨30, _⟩ => ⟨S2048x2048, .bf16⟩
  | .hbm, ⟨31, _⟩ => ⟨S2048x2048, .bf16⟩
  | .hbm, ⟨32, _⟩ => ⟨S2048x2048, .bf16⟩
  | .hbm, ⟨33, _⟩ => ⟨S2048x2048, .bf16⟩
  | .hbm, ⟨34, _⟩ => ⟨S4096x2048, .f32⟩
  | .hbm, ⟨35, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1024x256, .f32⟩
  | .local _ .vmem, ⟨21, _⟩ => ⟨S1024x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  slices_S8192x1024_S2048x1024_0_0 : S8192x1024.Slices ![0, 0] S2048x1024
  slices_S8192x1024_S2048x1024_2048_0 : S8192x1024.Slices ![2048, 0] S2048x1024
  slices_S8192x1024_S2048x1024_4096_0 : S8192x1024.Slices ![4096, 0] S2048x1024
  slices_S8192x1024_S2048x1024_6144_0 : S8192x1024.Slices ![6144, 0] S2048x1024
  slices_S8192x2048_S2048x2048_0_0 : S8192x2048.Slices ![0, 0] S2048x2048
  slices_S8192x2048_S2048x2048_2048_0 : S8192x2048.Slices ![2048, 0] S2048x2048
  slices_S8192x2048_S2048x2048_4096_0 : S8192x2048.Slices ![4096, 0] S2048x2048
  slices_S8192x2048_S2048x2048_6144_0 : S8192x2048.Slices ![6144, 0] S2048x2048
  slices_S8192_S2048_0 : S8192.Slices ![0] S2048
  slices_S8192_S2048_2048 : S8192.Slices ![2048] S2048
  slices_S8192_S2048_4096 : S8192.Slices ![4096] S2048
  slices_S8192_S2048_6144 : S8192.Slices ![6144] S2048
  shapeCasts_S2048_S1x2048 : S2048.ShapeCasts S1x2048
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x1024_S256x1024_S1024x256_1_1_0_0_n_n_wf : DotDims.WF S1024x1024 S256x1024 S1024x256 [1] [1] [0] [0] [] []
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .bf16 = 32 ∨ (Rect.block (s := S2048x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .bf16 = 32 ∨ (Rect.block (s := S2048x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S4096x2048.size a
  hwx0_10 : ∀ i : grid0.Coords, EltTy.bits .f32 = 32 ∨ (Rect.block (s := S4096x2048) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S4096x2048.size a
  hwx0_15 : ∀ i : grid0.Coords, EltTy.bits .f32 = 32 ∨ (Rect.block (s := S4096x2048) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S4096x2048.size a
  hwx0_16 : ∀ i : grid0.Coords, EltTy.bits .f32 = 32 ∨ (Rect.block (s := S4096x2048) S1024x256.size (cc0_transform_16 i) (hinb0_16 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S1024x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v27_0) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v27_1) S1024x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S8192x1024 : Shape := ⟨2, ![8192, 1024]⟩
abbrev S8192x2048 : Shape := ⟨2, ![8192, 2048]⟩
abbrev S8192 : Shape := ⟨1, ![8192]⟩
abbrev S1024x8192 : Shape := ⟨2, ![1024, 8192]⟩
abbrev S4096x8192 : Shape := ⟨2, ![4096, 8192]⟩
abbrev S1x8192 : Shape := ⟨2, ![1, 8192]⟩
abbrev S2048x8192 : Shape := ⟨2, ![2048, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S8192x1024, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S1024x8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S2048x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S8192x2048_S2048x8192_1_0 : S8192x2048.Transposes [1, 0] S2048x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LstmSpec.lean ====
/-
  One step of an LSTM cell with sine in place of tanh, over the extended reals.

  Inputs: a batch of 4096 rows `x` (width 1024), hidden state `h` and cell state `c` (width 2048), the stacked
  input weights `wi` (8192 × 1024) and hidden weights `wh` (8192 × 2048) and the two stacked biases `bi`, `bh`
  (length 8192). The 8192 stacked rows are four groups of 2048: forget, input, candidate, output, in this order.

  For batch row `p` and stacked row `n` the pre-activation is
      pre p n = (Σ_k x(p,k)·wi(n,k) + Σ_k h(p,k)·wh(n,k)) + (bi(n) + bh(n)),
  and for column `q` of the state
      newC p q = c(p,q) · σ(pre p q) + sin(pre p (4096+q)) · σ(pre p (2048+q)),
      newH p q = σ(pre p (6144+q)) · sin(newC p q),
  with σ the logistic function 1 / (1 + e^(-t)) extended to ±∞ by its limits.

  The same pre-activation grouped as (Σ x·wi + bi) + (Σ h·wh + bh) is `preSplit`; the two groupings are equal by
  commutativity and associativity of addition alone, which hold on all of the extended reals (`preSplit_eq`), so
  no finiteness of the inputs is used anywhere.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- The shapes of the seven inputs and of the two results. -/
abbrev SX : Shape := ⟨2, ![4096, 1024]⟩
abbrev SH : Shape := ⟨2, ![4096, 2048]⟩
abbrev SWi : Shape := ⟨2, ![8192, 1024]⟩
abbrev SWh : Shape := ⟨2, ![8192, 2048]⟩
abbrev SB : Shape := ⟨1, ![8192]⟩

/-- Stacked row `g·2048 + q`: row `q` of gate group `g` (0 forget, 1 input, 2 candidate, 3 output). -/
def gateRow (g : Fin 4) (q : Fin 2048) : Fin 8192 := ⟨g.val * 2048 + q.val, by have := g.isLt; have := q.isLt; omega⟩

theorem gateRow_val (g : Fin 4) (q : Fin 2048) : (gateRow g q).val = g.val * 2048 + q.val := rfl

section
variable (x : FVec Ideal SX .f32) (h c : FVec Ideal SH .f32) (wi : FVec Ideal SWi .f32) (wh : FVec Ideal SWh .f32)
  (bi bh : FVec Ideal SB .f32)

/-- The pre-activation of stacked row `n` for batch row `p`: both products first, the summed bias last. -/
def pre (p : Fin 4096) (n : Fin 8192) : EReal :=
  ((∑ k : Fin 1024, x (ix2 p k) * wi (ix2 n k)) + (∑ k : Fin 2048, h (ix2 p k) * wh (ix2 n k))) + (bi (ix1 n) + bh (ix1 n))

/-- The same pre-activation with each product joined to its own bias first. -/
def preSplit (p : Fin 4096) (n : Fin 8192) : EReal :=
  ((∑ k : Fin 1024, x (ix2 p k) * wi (ix2 n k)) + bi (ix1 n)) + ((∑ k : Fin 2048, h (ix2 p k) * wh (ix2 n k)) + bh (ix1 n))

/-- (a + b) + (c + d) = (a + c) + (b + d) in the additive commutative monoid of the extended reals. -/
theorem preSplit_eq (p : Fin 4096) (n : Fin 8192) : preSplit x h wi wh bi bh p n = pre x h wi wh bi bh p n := by
  unfold preSplit pre
  exact add_add_add_comm _ _ _ _

/-- The new cell state at `(p, q)`. -/
def newC (p : Fin 4096) (q : Fin 2048) : EReal :=
  c (ix2 p q) * Ideal.logistic (pre x h wi wh bi bh p (gateRow 0 q))
    + Ideal.sin (pre x h wi wh bi bh p (gateRow 2 q)) * Ideal.logistic (pre x h wi wh bi bh p (gateRow 1 q))

/-- The new hidden state at `(p, q)`. -/
def newH (p : Fin 4096) (q : Fin 2048) : EReal :=
  Ideal.logistic (pre x h wi wh bi bh p (gateRow 3 q)) * Ideal.sin (newC x h c wi wh bi bh p q)

/-- The two results as arrays. -/
def outC : FVec Ideal SH .f32 := fun i => newC x h c wi wh bi bh ⟨(i 0).val, idx2_lt0 i⟩ ⟨(i 1).val, idx2_lt1 i⟩
def outH : FVec Ideal SH .f32 := fun i => newH x h c wi wh bi bh ⟨(i 0).val, idx2_lt0 i⟩ ⟨(i 1).val, idx2_lt1 i⟩

theorem outC_ix2 (p : Fin 4096) (q : Fin 2048) : outC x h c wi wh bi bh (ix2 p q) = newC x h c wi wh bi bh p q := rfl
theorem outH_ix2 (p : Fin 4096) (q : Fin 2048) : outH x h c wi wh bi bh (ix2 p q) = newH x h c wi wh bi bh p q := rfl

end

/-- The float pattern of 1.0 is the real number one. -/
theorem ofBits_one : Ideal.ofBits .f32 0x3F800000#32 = (1 : EReal) := by
  simp [Ideal.ofBits, Ideal.ieee, -EReal.coe_mul]; norm_num

/-- The logistic function is the quotient the reference spells: 1 / (1 + e^(-t)) on every extended real. -/
theorem logistic_spelled (t : EReal) : Ideal.div 1 (1 + Ideal.exp (-t)) = Ideal.logistic t := rfl

end Cert.Lstm

end
-- ==== Proof.RefIsSpec.lean ====
/-
  The reference program computes the LSTM step of the specification.

  The reference forms the pre-activation of stacked row n for batch row p as
      (Σ_k x(p,k)·wi(n,k) + bi(n)) + (Σ_k h(p,k)·wh(n,k) + bh(n)),
  reads the four gate groups as the column blocks starting at 0, 2048, 4096 and 6144, applies the logistic function
  written as 1 / (1 + e^(-t)) to the forget, input and output groups and the sine to the candidate group, and returns
      c' = c · σ(forget) + sin(candidate) · σ(input),      h' = σ(output) · sin(c').
  Each stage is read at an index from the stage before it; the only algebra used is the regrouping
  (a + b) + (c + d) = (a + c) + (b + d) of the pre-activation.
-/
import proofs.«159760_j5712306503741_1_alg».proof.Proof.Gen.ReferenceIdeal.Read
import proofs.«159760_j5712306503741_1_alg».proof.Proof.LstmSpec

noncomputable section

namespace Cert.ReferenceIdeal.RefSpec

open Idealize.ShloMosaic Idealize.ShloMosaic.ValueIdx Cert.ReferenceIdeal Cert.ReferenceIdeal.Read

section
variable (x0 : FVec Ideal S4096x1024 .f32) (x1 x2 : FVec Ideal S4096x2048 .f32) (x3 : FVec Ideal S8192x1024 .f32)
  (x4 : FVec Ideal S8192x2048 .f32) (x5 x6 : FVec Ideal S8192 .f32)

/-- The first product at (p, n): Σ_k x(p,k) · wi(n,k); the transposed weight read at (k, n) is the weight at (n, k). -/
theorem dot_x (p : Fin 4096) (n : Fin 8192) :
    val_main_v1 (F := Ideal) x0 x3 (ix2 p n) = ∑ k : Fin 1024, x0 (ix2 p k) * x3 (ix2 n k) := by
  rw [val_main_v1_apply]
  refine Finset.sum_congr rfl fun k _ => ?_
  rw [val_main_v0_apply]
  have e1 : lidx_main_v1 (ix2 p n) k = ix2 p k :=
    funext fun a => match a with | ⟨0, _⟩ => rfl | ⟨1, _⟩ => rfl
  have e2 : idx_main_v0 (ridx_main_v1 (ix2 p n) k) = ix2 n k :=
    funext fun a => match a with | ⟨0, _⟩ => rfl | ⟨1, _⟩ => rfl
  rw [e1, e2]

/-- The second product at (p, n): Σ_k h(p,k) · wh(n,k). -/
theorem dot_h (p : Fin 4096) (n : Fin 8192) :
    val_main_v6 (F := Ideal) x1 x4 (ix2 p n) = ∑ k : Fin 2048, x1 (ix2 p k) * x4 (ix2 n k) := by
  rw [val_main_v6_apply]
  refine Finset.sum_congr rfl fun k _ => ?_
  rw [val_main_v5_apply]
  have e1 : lidx_main_v6 (ix2 p n) k = ix2 p k :=
    funext fun a => match a with | ⟨0, _⟩ => rfl | ⟨1, _⟩ => rfl
  have e2 : idx_main_v5 (ridx_main_v6 (ix2 p n) k) = ix2 n k :=
    funext fun a => match a with | ⟨0, _⟩ => rfl | ⟨1, _⟩ => rfl
  rw [e1, e2]

/-- The first bias spread over the batch rows: at (p, n) it is bi(n). -/
theorem bias_i (p : Fin 4096) (n : Fin 8192) : val_main_v3 (F := Ideal) x5 (ix2 p n) = x5 (ix1 n) := by
  rw [val_main_v3_apply, val_main_v2_apply]
  have e : idx_main_v2 (idx_main_v3 (ix2 p n)) = ix1 n := funext fun a => match a with | ⟨0, _⟩ => rfl
  rw [e]

/-- The second bias spread over the batch rows: at (p, n) it is bh(n). -/
theorem bias_h (p : Fin 4096) (n : Fin 8192) : val_main_v8 (F := Ideal) x6 (ix2 p n) = x6 (ix1 n) := by
  rw [val_main_v8_apply, val_main_v7_apply]
  have e : idx_main_v7 (idx_main_v8 (ix2 p n)) = ix1 n := funext fun a => match a with | ⟨0, _⟩ => rfl
  rw [e]

/-- The summed stage at (p, n) is the pre-activation, each product joined to its own bias. -/
theorem ref_pre (p : Fin 4096) (n : Fin 8192) :
    val_main_v10 (F := Ideal) x0 x1 x3 x4 x5 x6 (ix2 p n) = Cert.Lstm.preSplit x0 x1 x3 x4 x5 x6 p n := by
  rw [val_main_v10_apply, val_main_v4_apply, val_main_v9_apply, dot_x, dot_h, bias_i, bias_h]
  rfl

/-- The forget group: columns 0 … 2047 of the summed stage. -/
theorem slice_f (p : Fin 4096) (q : Fin 2048) :
    val_main_v11 (F := Ideal) x0 x1 x3 x4 x5 x6 (ix2 p q)
      = Cert.Lstm.preSplit x0 x1 x3 x4 x5 x6 p (Cert.Lstm.gateRow 0 q) := by
  rw [val_main_v11_apply]
  have e : idx_main_v11 (ix2 p q) = ix2 p (Cert.Lstm.gateRow 0 q) := funext fun a => match a with
    | ⟨0, _⟩ => rfl
    | ⟨1, _⟩ => Fin.ext (by show q.val = 0 * 2048 + q.val; omega)
  rw [e, ref_pre]

/-- The input group: columns 2048 … 4095. -/
theorem slice_i (p : Fin 4096) (q : Fin 2048) :
    val_main_v12 (F := Ideal) x0 x1 x3 x4 x5 x6 (ix2 p q)
      = Cert.Lstm.preSplit x0 x1 x3 x4 x5 x6 p (Cert.Lstm.gateRow 1 q) := by
  rw [val_main_v12_apply]
  have e : idx_main_v12 (ix2 p q) = ix2 p (Cert.Lstm.gateRow 1 q) := funext fun a => match a with
    | ⟨0, _⟩ => rfl
    | ⟨1, _⟩ => Fin.ext (by show 2048 + q.val = 1 * 2048 + q.val; omega)
  rw [e, ref_pre]

/-- The candidate group: columns 4096 … 6143. -/
theorem slice_g (p : Fin 4096) (q : Fin 2048) :
    val_main_v13 (F := Ideal) x0 x1 x3 x4 x5 x6 (ix2 p q)
      = Cert.Lstm.preSplit x0 x1 x3 x4 x5 x6 p (Cert.Lstm.gateRow 2 q) := by
  rw [val_main_v13_apply]
  have e : idx_main_v13 (ix2 p q) = ix2 p (Cert.Lstm.gateRow 2 q) := funext fun a => match a with
    | ⟨0, _⟩ => rfl
    | ⟨1, _⟩ => Fin.ext (by show 4096 + q.val = 2 * 2048 + q.val; omega)
  rw [e, ref_pre]

/-- The output group: columns 6144 … 8191. -/
theorem slice_o (p : Fin 4096) (q : Fin 2048) :
    val_main_v14 (F := Ideal) x0 x1 x3 x4 x5 x6 (ix2 p q)
      = Cert.Lstm.preSplit x0 x1 x3 x4 x5 x6 p (Cert.Lstm.gateRow 3 q) := by
  rw [val_main_v14_apply]
  have e : idx_main_v14 (ix2 p q) = ix2 p (Cert.Lstm.gateRow 3 q) := funext fun a => match a with
    | ⟨0, _⟩ => rfl
    | ⟨1, _⟩ => Fin.ext (by show 6144 + q.val = 3 * 2048 + q.val; omega)
  rw [e, ref_pre]

/-- The logistic of the forget group at (p, q), as the reference spells it: 1 / (1 + e^(-t)). -/
theorem gate_f (p : Fin 4096) (q : Fin 2048) :
    val_main_v20 (F := Ideal) x0 x1 x3 x4 x5 x6 (ix2 p q)
      = Ideal.logistic (Cert.Lstm.pre x0 x1 x3 x4 x5 x6 p (Cert.Lstm.gateRow 0 q)) := by
  rw [val_main_v20_apply, val_main_v19_apply, val_main_cst_0_apply, val_main_v18_apply, val_main_v17_apply,
    val_main_cst_apply, val_main_v16_apply, val_main_v15_apply, slice_f, Cert.Lstm.preSplit_eq]
  simp only [Ideal.hostDivf_def, Ideal.hostUnary_exp_def, Ideal.hostNegf_def, Ideal.negf_def, Ideal.addf_def,
    Ideal.ofBits_def, Cert.Lstm.ofBits_one]
  rfl

/-- The logistic of the input group at (p, q). -/
theorem gate_i (p : Fin 4096) (q : Fin 2048) :
    val_main_v26 (F := Ideal) x0 x1 x3 x4 x5 x6 (ix2 p q)
      = Ideal.logistic (Cert.Lstm.pre x0 x1 x3 x4 x5 x6 p (Cert.Lstm.gateRow 1 q)) := by
  rw [val_main_v26_apply, val_main_v25_apply, val_main_cst_2_apply, val_main_v24_apply, val_main_v23_apply,
    val_main_cst_1_apply, val_main_v22_apply, val_main_v21_apply, slice_i, Cert.Lstm.preSplit_eq]
  simp only [Ideal.hostDivf_def, Ideal.hostUnary_exp_def, Ideal.hostNegf_def, Ideal.negf_def, Ideal.addf_def,
    Ideal.ofBits_def, Cert.Lstm.ofBits_one]
  rfl

/-- The logistic of the output group at (p, q). -/
theorem gate_o (p : Fin 4096) (q : Fin 2048) :
    val_main_v36 (F := Ideal) x0 x1 x3 x4 x5 x6 (ix2 p q)
      = Ideal.logistic (Cert.Lstm.pre x0 x1 x3 x4 x5 x6 p (Cert.Lstm.gateRow 3 q)) := by
  rw [val_main_v36_apply, val_main_v35_apply, val_main_cst_4_apply, val_main_v34_apply, val_main_v33_apply,
    val_main_cst_3_apply, val_main_v32_apply, val_main_v31_apply, slice_o, Cert.Lstm.preSplit_eq]
  simp only [Ideal.hostDivf_def, Ideal.hostUnary_exp_def, Ideal.hostNegf_def, Ideal.negf_def, Ideal.addf_def,
    Ideal.ofBits_def, Cert.Lstm.ofBits_one]
  rfl

/-- The sine of the candidate group at (p, q). -/
theorem gate_g (p : Fin 4096) (q : Fin 2048) :
    val_main_v27 (F := Ideal) x0 x1 x3 x4 x5 x6 (ix2 p q)
      = Ideal.sin (Cert.Lstm.pre x0 x1 x3 x4 x5 x6 p (Cert.Lstm.gateRow 2 q)) := by
  rw [val_main_v27_apply, slice_g, Cert.Lstm.preSplit_eq, Ideal.hostUnary_sin_def]

/-- The new cell state at (p, q): c · σ(forget) + sin(candidate) · σ(input). -/
theorem ref_newC_at (p : Fin 4096) (q : Fin 2048) :
    val_main_v30 (F := Ideal) x0 x1 x2 x3 x4 x5 x6 (ix2 p q) = Cert.Lstm.newC x0 x1 x2 x3 x4 x5 x6 p q := by
  rw [val_main_v30_apply, val_main_v28_apply, val_main_v29_apply, gate_f, gate_g, gate_i, Ideal.addf_def,
    Ideal.mulf_def, Ideal.mulf_def]
  rfl

/-- The new hidden state at (p, q): σ(output) · sin(c'). -/
theorem ref_newH_at (p : Fin 4096) (q : Fin 2048) :
    val_main_v38 (F := Ideal) x0 x1 x2 x3 x4 x5 x6 (ix2 p q) = Cert.Lstm.newH x0 x1 x2 x3 x4 x5 x6 p q := by
  rw [val_main_v38_apply, val_main_v37_apply, gate_o, ref_newC_at, Ideal.mulf_def, Ideal.hostUnary_sin_def]
  rfl

/-- The reference's second result is the specification's new cell state. -/
theorem ref_newC :
    val_main_v30 (F := Ideal) x0 x1 x2 x3 x4 x5 x6 = Cert.Lstm.outC x0 x1 x2 x3 x4 x5 x6 := by
  funext i
  obtain ⟨p, q, rfl⟩ : ∃ (p : Fin 4096) (q : Fin 2048), i = ix2 p q := ⟨i 0, i 1, eq_ix2 i⟩
  rw [Cert.Lstm.outC_ix2, ref_newC_at]

/-- The reference's first result is the specification's new hidden state. -/
theorem ref_newH :
    val_main_v38 (F := Ideal) x0 x1 x2 x3 x4 x5 x6 = Cert.Lstm.outH x0 x1 x2 x3 x4 x5 x6 := by
  funext i
  obtain ⟨p, q, rfl⟩ : ∃ (p : Fin 4096) (q : Fin 2048), i = ix2 p q := ⟨i 0, i 1, eq_ix2 i⟩
  rw [Cert.Lstm.outH_ix2, ref_newH_at]

end

end Cert.ReferenceIdeal.RefSpec

end
-- ==== Proof.KernelBlock.lean ====
/-
  The arithmetic of one block of the cell, read at an entry.

  A block holds 1024 batch rows and 256 state columns. Its operands are the 1024×1024 block `a` of inputs, the
  1024×2048 block `b` of hidden states, for each gate a 256×1024 block `w` and a 256×2048 block `u` of weight rows and a
  1×256 row of summed biases, and the 1024×256 block of old cell states. Each matrix product contracts the SECOND axis
  of both operands (the weights are used row by row, i.e. transposed), so entry (r, s) of a product is the inner
  product of row r of the left block with row s of the right block; a gate's pre-activation at (r, s) is the sum of the
  two products plus the bias at column s.
-/
import proofs.«159760_j5712306503741_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

theorem prodX_lhs0 (i : S1024x256.Idx) (q : dot_S1024x1024_S256x1024_S1024x256_1_1_0_0_n_n.contr.Idx) : (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem prodX_rhs0 (i : S1024x256.Idx) (q : dot_S1024x1024_S256x1024_S1024x256_1_1_0_0_n_n.contr.Idx) : (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl

/-- Entry `(r, s)` of the product of an M×1024 block with the transpose of an N×1024 block, accumulated into zeros, is the
    inner product of row `r` of the first with row `s` of the second. -/
theorem prodX (a : FVec Ideal S1024x1024 .bf16) (w : FVec Ideal S256x1024 .bf16) (r : Fin 1024) (s : Fin 256) :
    matmul dot_S1024x1024_S256x1024_S1024x256_1_1_0_0_n_n none a w (constant (F := Ideal) S1024x256 .f32 0x00000000#32) (ix2 r s)
      = ∑ k : Fin 1024, a (ix2 r k) * w (ix2 s k) := by
  show FloatOps.matmul dot_S1024x1024_S256x1024_S1024x256_1_1_0_0_n_n none a w (constant (F := Ideal) S1024x256 .f32 0x00000000#32) (ix2 r s) = _
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r s) ((contrEquiv1 dot_S1024x1024_S256x1024_S1024x256_1_1_0_0_n_n 1024 rfl rfl).symm k) = ix2 r k := funext fun d => Fin.ext (by
    match d with
    | ⟨0, _⟩ => exact prodX_lhs0 _ _
    | ⟨1, _⟩ => exact (dot_S1024x1024_S256x1024_S1024x256_1_1_0_0_n_n.lhsIdx_val_of_single rfl _ _).trans hk)
  have er : dot_S1024x1024_S256x1024_S1024x256_1_1_0_0_n_n.rhsIdx (ix2 r s) ((contrEquiv1 dot_S1024x1024_S256x1024_S1024x256_1_1_0_0_n_n 1024 rfl rfl).symm k) = ix2 s k := funext fun d => Fin.ext (by
    match d with
    | ⟨0, _⟩ => exact prodX_rhs0 _ _
    | ⟨1, _⟩ => exact (dot_S1024x1024_S256x1024_S1024x256_1_1_0_0_n_n.rhsIdx_val_of_single rfl _ _).trans hk)
  rw [el, er]

theorem prodH_lhs0 (i : S1024x256.Idx) (q : dot_S1024x2048_S256x2048_S1024x256_1_1_0_0_n_n.contr.Idx) : (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem prodH_rhs0 (i : S1024x256.Idx) (q : dot_S1024x2048_S256x2048_S1024x256_1_1_0_0_n_n.contr.Idx) : (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl

/-- Entry `(r, s)` of the product of an M×2048 block with the transpose of an N×2048 block, accumulated into zeros, is the
    inner product of row `r` of the first with row `s` of the second. -/
theorem prodH (a : FVec Ideal S1024x2048 .bf16) (w : FVec Ideal S256x2048 .bf16) (r : Fin 1024) (s : Fin 256) :
    matmul dot_S1024x2048_S256x2048_S1024x256_1_1_0_0_n_n none a w (constant (F := Ideal) S1024x256 .f32 0x00000000#32) (ix2 r s)
      = ∑ k : Fin 2048, a (ix2 r k) * w (ix2 s k) := by
  show FloatOps.matmul dot_S1024x2048_S256x2048_S1024x256_1_1_0_0_n_n none a w (constant (F := Ideal) S1024x256 .f32 0x00000000#32) (ix2 r s) = _
  rw [Ideal.matmul_constant_zero_apply, ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 r s) ((contrEquiv1 dot_S1024x2048_S256x2048_S1024x256_1_1_0_0_n_n 2048 rfl rfl).symm k) = ix2 r k := funext fun d => Fin.ext (by
    match d with
    | ⟨0, _⟩ => exact prodH_lhs0 _ _
    | ⟨1, _⟩ => exact (dot_S1024x2048_S256x2048_S1024x256_1_1_0_0_n_n.lhsIdx_val_of_single rfl _ _).trans hk)
  have er : dot_S1024x2048_S256x2048_S1024x256_1_1_0_0_n_n.rhsIdx (ix2 r s) ((contrEquiv1 dot_S1024x2048_S256x2048_S1024x256_1_1_0_0_n_n 2048 rfl rfl).symm k) = ix2 s k := funext fun d => Fin.ext (by
    match d with
    | ⟨0, _⟩ => exact prodH_rhs0 _ _
    | ⟨1, _⟩ => exact (dot_S1024x2048_S256x2048_S1024x256_1_1_0_0_n_n.rhsIdx_val_of_single rfl _ _).trans hk)
  rw [el, er]

/-- A 1×256 row broadcast down 1024 rows, read at `(r, s)`, is the row's entry `s`. -/
theorem rowBcast (v : FVec Ideal S1x256 .f32) (h1 : S1x256.ShapeCasts S1x256) (h2 : S1x256.Broadcasts S1024x256) (r : Fin 1024) (s : Fin 256) :
    broadcastTo S1024x256 (shapeCast S1x256 v h1) h2 (ix2 r s) = v (ix2 0 s) := by
  rw [shapeCast_self]
  exact broadcastTo_apply v h2 (ix2 r s) (ix2 0 s) (fun a => match a with
    | ⟨0, _⟩ => by show 0 = (if (1 : Nat) = 1 then 0 else _); rw [if_pos rfl]
    | ⟨1, _⟩ => by show s.val = (if (256 : Nat) = 1 then 0 else s.val); rw [if_neg (by decide)])

/-- A gate's pre-activation inside a block, at row `r` and column `s`. -/
def gate (a : FVec Ideal S1024x1024 .bf16) (b : FVec Ideal S1024x2048 .bf16) (w : FVec Ideal S256x1024 .bf16)
    (u : FVec Ideal S256x2048 .bf16) (bias : FVec Ideal S1x256 .f32) (r : Fin 1024) (s : Fin 256) : EReal :=
  ((∑ k : Fin 1024, a (ix2 r k) * w (ix2 s k)) + (∑ k : Fin 2048, b (ix2 r k) * u (ix2 s k))) + bias (ix2 0 s)

/-- The forget gate's pre-activation as the body computes it. -/
theorem pay5_apply (a : Vec Ideal S1024x1024 .bf16) (b : Vec Ideal S1024x2048 .bf16) (w : Vec Ideal S256x1024 .bf16)
    (u : Vec Ideal S256x2048 .bf16) (bias : Vec Ideal S1x256 .f32) (r : Fin 1024) (s : Fin 256) :
    k0_pay5 a b w u bias (ix2 r s) = gate a b w u bias r s := by
  unfold k0_pay5 k0_pay3 k0_pay4
  dsimp only
  rw [addf_apply, addf_apply, rowBcast]
  simp only [shapeCast_self]
  rw [prodX, prodH]
  rfl

/-- The input gate's pre-activation as the body computes it. -/
theorem pay6_apply (a : Vec Ideal S1024x1024 .bf16) (b : Vec Ideal S1024x2048 .bf16) (w : Vec Ideal S256x1024 .bf16)
    (u : Vec Ideal S256x2048 .bf16) (bias : Vec Ideal S1x256 .f32) (r : Fin 1024) (s : Fin 256) :
    k0_pay6 a b w u bias (ix2 r s) = gate a b w u bias r s := by
  unfold k0_pay6 k0_pay3 k0_pay4
  dsimp only
  rw [addf_apply, addf_apply, rowBcast]
  simp only [shapeCast_self]
  rw [prodX, prodH]
  rfl

/-- The candidate's two products as the body computes them. -/
theorem pay7_apply (a : Vec Ideal S1024x1024 .bf16) (w : Vec Ideal S256x1024 .bf16) (r : Fin 1024) (s : Fin 256) :
    k0_pay7 a w (ix2 r s) = ∑ k : Fin 1024, a (ix2 r k) * w (ix2 s k) := by
  unfold k0_pay7 k0_pay3
  dsimp only
  simp only [shapeCast_self]
  rw [prodX]

theorem pay8_apply (b : Vec Ideal S1024x2048 .bf16) (u : Vec Ideal S256x2048 .bf16) (r : Fin 1024) (s : Fin 256) :
    k0_pay8 b u (ix2 r s) = ∑ k : Fin 2048, b (ix2 r k) * u (ix2 s k) := by
  unfold k0_pay8 k0_pay4
  dsimp only
  simp only [shapeCast_self]
  rw [prodH]

end Cert.KernelIdeal.Block

end
-- ==== Proof.BlockCell.lean ====
/-
  A block of the cell is the cell, restricted.

  Batch rows are cut into 4 tiles of 1024 (`rowOf I r` = I·1024 + r) and state columns into 8 tiles of 256
  (`colOf J s` = J·256 + s). If a block's operands are the matching pieces of the seven arrays — rows of tile I of the
  inputs and hidden states; for each gate g the rows g·2048 + J·256 + s of the two stacked weight matrices and the summed
  biases at those rows; tile (I, J) of the old cell state — then the block's two results at (r, s) are the new cell
  state and the new hidden state at (rowOf I r, colOf J s).
-/
import proofs.«159760_j5712306503741_1_alg».proof.Proof.LstmSpec
import proofs.«159760_j5712306503741_1_alg».proof.Proof.KernelBlock

noncomputable section

namespace Cert.KernelIdeal.Block

open Idealize.ShloMosaic Idealize.ShloMosaic.ValueIdx Cert.KernelIdeal Cert.KernelIdeal.Gen Cert.Lstm

theorem logistic_apply {s : Shape} {φ : FTy} (a : FVec Ideal s φ) (i : s.Idx) : logistic a i = Ideal.logistic (a i) := rfl
theorem sin_apply {s : Shape} {φ : FTy} (a : FVec Ideal s φ) (i : s.Idx) : sin a i = Ideal.sin (a i) := rfl

/-- Row r of batch tile I. -/
def rowOf (I : Fin 4) (r : Fin 1024) : Fin 4096 := ⟨I.val * 1024 + r.val, by have := I.isLt; have := r.isLt; omega⟩
/-- Column s of state tile J. -/
def colOf (J : Fin 8) (s : Fin 256) : Fin 2048 := ⟨J.val * 256 + s.val, by have := J.isLt; have := s.isLt; omega⟩
theorem rowOf_val (I : Fin 4) (r : Fin 1024) : (rowOf I r).val = I.val * 1024 + r.val := rfl
theorem colOf_val (J : Fin 8) (s : Fin 256) : (colOf J s).val = J.val * 256 + s.val := rfl

/-- The new cell state as the body computes it from its gates, at an entry. -/
theorem pay1_apply (v14 v25 v28 v31 : FVec Ideal S1024x256 .f32) (v33 : Vec Ideal S1x256 .f32) (v51 : Vec Ideal S1024x256 .f32)
    (r : Fin 1024) (s : Fin 256) :
    k0_pay1 v14 v25 v28 v31 v33 v51 (ix2 r s)
      = v51 (ix2 r s) * Ideal.logistic (v14 (ix2 r s))
        + Ideal.sin ((v28 (ix2 r s) + v31 (ix2 r s)) + v33 (ix2 0 s)) * Ideal.logistic (v25 (ix2 r s)) := by
  unfold k0_pay1
  rw [addf_apply, mulf_apply, mulf_apply, logistic_apply, logistic_apply, sin_apply, addf_apply, addf_apply, rowBcast]

/-- The new hidden state as the body computes it: the output gate times the sine of the new cell state. -/
theorem pay2_apply (x0 : Vec Ideal S1024x1024 .bf16) (x1 : Vec Ideal S1024x2048 .bf16)
    (v14 v25 v28 v31 : FVec Ideal S1024x256 .f32) (v33 : Vec Ideal S1x256 .f32) (v37 : Vec Ideal S256x1024 .bf16)
    (v40 : Vec Ideal S256x2048 .bf16) (v44 : Vec Ideal S1x256 .f32) (v51 : Vec Ideal S1024x256 .f32) (r : Fin 1024) (s : Fin 256) :
    k0_pay2 (k0_pay3 x0) (k0_pay4 x1) v14 v25 v28 v31 v33 v37 v40 v44 v51 (ix2 r s)
      = Ideal.logistic (gate x0 x1 v37 v40 v44 r s) * Ideal.sin (k0_pay1 v14 v25 v28 v31 v33 v51 (ix2 r s)) := by
  unfold k0_pay2 k0_pay3 k0_pay4
  dsimp only
  rw [mulf_apply, logistic_apply, sin_apply, addf_apply, addf_apply, rowBcast]
  simp only [shapeCast_self]
  rw [prodX, prodH]
  rfl

section
variable (x : FVec Ideal SX .f32) (h c : FVec Ideal SH .f32) (wi : FVec Ideal SWi .f32) (wh : FVec Ideal SWh .f32)
  (bi bh : FVec Ideal SB .f32)

/-- One gate: a block whose operands are the pieces for gate `g` computes that gate's pre-activation. -/
theorem gate_eq_pre (I : Fin 4) (J : Fin 8) (g : Fin 4)
    (a : Vec Ideal S1024x1024 .bf16) (b : Vec Ideal S1024x2048 .bf16) (w : Vec Ideal S256x1024 .bf16)
    (u : Vec Ideal S256x2048 .bf16) (bias : Vec Ideal S1x256 .f32)
    (ha : ∀ r k, a (ix2 r k) = x (ix2 (rowOf I r) k))
    (hb : ∀ r k, b (ix2 r k) = h (ix2 (rowOf I r) k))
    (hw : ∀ s k, w (ix2 s k) = wi (ix2 (gateRow g (colOf J s)) k))
    (hu : ∀ s k, u (ix2 s k) = wh (ix2 (gateRow g (colOf J s)) k))
    (hbias : ∀ s, bias (ix2 0 s) = bi (ix1 (gateRow g (colOf J s))) + bh (ix1 (gateRow g (colOf J s))))
    (r : Fin 1024) (s : Fin 256) :
    gate a b w u bias r s = pre x h wi wh bi bh (rowOf I r) (gateRow g (colOf J s)) := by
  unfold gate pre
  rw [hbias s]
  congr 1
  congr 1
  · exact Finset.sum_congr rfl fun k _ => by rw [ha r k, hw s k]
  · exact Finset.sum_congr rfl fun k _ => by rw [hb r k, hu s k]

/-- A block's fifteen operands are the pieces of the arrays at batch tile `I` and state tile `J`. -/
structure BlockOf (I : Fin 4) (J : Fin 8)
    (x0 : Vec Ideal S1024x1024 .bf16) (x1 : Vec Ideal S1024x2048 .bf16)
    (w0 w1 w2 w3 : Vec Ideal S256x1024 .bf16) (u0 u1 u2 u3 : Vec Ideal S256x2048 .bf16)
    (c0 : Vec Ideal S1024x256 .f32) (b0 b1 b2 b3 : Vec Ideal S1x256 .f32) : Prop where
  hx : ∀ r k, x0 (ix2 r k) = x (ix2 (rowOf I r) k)
  hh : ∀ r k, x1 (ix2 r k) = h (ix2 (rowOf I r) k)
  hc : ∀ r s, c0 (ix2 r s) = c (ix2 (rowOf I r) (colOf J s))
  hw0 : ∀ s k, w0 (ix2 s k) = wi (ix2 (gateRow 0 (colOf J s)) k)
  hu0 : ∀ s k, u0 (ix2 s k) = wh (ix2 (gateRow 0 (colOf J s)) k)
  hb0 : ∀ s, b0 (ix2 0 s) = bi (ix1 (gateRow 0 (colOf J s))) + bh (ix1 (gateRow 0 (colOf J s)))
  hw1 : ∀ s k, w1 (ix2 s k) = wi (ix2 (gateRow 1 (colOf J s)) k)
  hu1 : ∀ s k, u1 (ix2 s k) = wh (ix2 (gateRow 1 (colOf J s)) k)
  hb1 : ∀ s, b1 (ix2 0 s) = bi (ix1 (gateRow 1 (colOf J s))) + bh (ix1 (gateRow 1 (colOf J s)))
  hw2 : ∀ s k, w2 (ix2 s k) = wi (ix2 (gateRow 2 (colOf J s)) k)
  hu2 : ∀ s k, u2 (ix2 s k) = wh (ix2 (gateRow 2 (colOf J s)) k)
  hb2 : ∀ s, b2 (ix2 0 s) = bi (ix1 (gateRow 2 (colOf J s))) + bh (ix1 (gateRow 2 (colOf J s)))
  hw3 : ∀ s k, w3 (ix2 s k) = wi (ix2 (gateRow 3 (colOf J s)) k)
  hu3 : ∀ s k, u3 (ix2 s k) = wh (ix2 (gateRow 3 (colOf J s)) k)
  hb3 : ∀ s, b3 (ix2 0 s) = bi (ix1 (gateRow 3 (colOf J s))) + bh (ix1 (gateRow 3 (colOf J s)))

variable {x h c wi wh bi bh}
variable {I : Fin 4} {J : Fin 8}
  {x0 : Vec Ideal S1024x1024 .bf16} {x1 : Vec Ideal S1024x2048 .bf16}
  {w0 w1 w2 w3 : Vec Ideal S256x1024 .bf16} {u0 u1 u2 u3 : Vec Ideal S256x2048 .bf16}
  {c0 : Vec Ideal S1024x256 .f32} {b0 b1 b2 b3 : Vec Ideal S1x256 .f32}

/-- The block's cell-state result is the new cell state at the block's place. -/
theorem cellC (hB : BlockOf x h c wi wh bi bh I J x0 x1 w0 w1 w2 w3 u0 u1 u2 u3 c0 b0 b1 b2 b3) (r : Fin 1024) (s : Fin 256) :
    k0_pay1 (k0_pay5 x0 x1 w0 u0 b0) (k0_pay6 x0 x1 w1 u1 b1) (k0_pay7 x0 w2) (k0_pay8 x1 u2) b2 c0 (ix2 r s)
      = newC x h c wi wh bi bh (rowOf I r) (colOf J s) := by
  rw [pay1_apply, pay5_apply, pay6_apply, pay7_apply, pay8_apply]
  unfold newC
  rw [← gate_eq_pre x h wi wh bi bh I J 0 x0 x1 w0 u0 b0 hB.hx hB.hh hB.hw0 hB.hu0 hB.hb0 r s,
    ← gate_eq_pre x h wi wh bi bh I J 1 x0 x1 w1 u1 b1 hB.hx hB.hh hB.hw1 hB.hu1 hB.hb1 r s,
    ← gate_eq_pre x h wi wh bi bh I J 2 x0 x1 w2 u2 b2 hB.hx hB.hh hB.hw2 hB.hu2 hB.hb2 r s,
    ← hB.hc r s]
  rfl

/-- The block's hidden-state result is the new hidden state at the block's place. -/
theorem cellH (hB : BlockOf x h c wi wh bi bh I J x0 x1 w0 w1 w2 w3 u0 u1 u2 u3 c0 b0 b1 b2 b3) (r : Fin 1024) (s : Fin 256) :
    k0_pay2 (k0_pay3 x0) (k0_pay4 x1) (k0_pay5 x0 x1 w0 u0 b0) (k0_pay6 x0 x1 w1 u1 b1) (k0_pay7 x0 w2) (k0_pay8 x1 u2) b2 w3 u3 b3 c0 (ix2 r s)
      = newH x h c wi wh bi bh (rowOf I r) (colOf J s) := by
  rw [pay2_apply, cellC hB r s]
  unfold newH
  rw [← gate_eq_pre x h wi wh bi bh I J 3 x0 x1 w3 u3 b3 hB.hx hB.hh hB.hw3 hB.hu3 hB.hb3 r s]

end

end Cert.KernelIdeal.Block

end
-- ==== Proof.KernelStage.lean ====
/-
  What the region finds in its operand arrays.

  Before the region the program cuts the stacked weights into the four gate groups (rows g·2048 … g·2048 + 2047 of
  each), adds the two stacked biases once and cuts the sum the same way, laying each piece out as a single row, and
  narrows the activations and weights to a shorter float format, which over the extended reals changes nothing. So
  every staged array, read at an index, is an argument array read at the matching index: group g's weight row n is the
  stacked row g·2048 + n, and group g's bias entry q is the sum of the two biases at g·2048 + q.
-/
import proofs.«159760_j5712306503741_1_alg».proof.Proof.Gen.KernelIdeal.Frame
import proofs.«159760_j5712306503741_1_alg».proof.Proof.LstmSpec
import Idealize.ShloMosaic.Lib.StableHlo.Run
import Idealize.ShloMosaic.Lib.Pipeline.Value
import Idealize.ShloMosaic.Lib.ValueIdx

noncomputable section

namespace Cert.KernelIdeal.Stage

open Cert.KernelIdeal Cert.KernelIdeal.Gen Idealize.ShloMosaic Idealize.ShloMosaic.TcCoe Idealize.SL.Sem
open Idealize.ShloMosaic.ValueIdx Idealize.ShloMosaic.StableHlo Cert.Lstm

variable (m : (ℓ : Loc nD τ sig) → Buf (Elt Ideal) ℓ) (c : Dev nD)

/-- The seven argument arrays as the device `c` holds them at launch. -/
abbrev aX : FVec Ideal SX .f32 := m ((c : Thread nD τ).loc main_arg0)
abbrev aH : FVec Ideal SH .f32 := m ((c : Thread nD τ).loc main_arg1)
abbrev aC : FVec Ideal SH .f32 := m ((c : Thread nD τ).loc main_arg2)
abbrev aWi : FVec Ideal SWi .f32 := m ((c : Thread nD τ).loc main_arg3)
abbrev aWh : FVec Ideal SWh .f32 := m ((c : Thread nD τ).loc main_arg4)
abbrev aBi : FVec Ideal SB .f32 := m ((c : Thread nD τ).loc main_arg5)
abbrev aBh : FVec Ideal SB .f32 := m ((c : Thread nD τ).loc main_arg6)

/-- Stacked row `o + q` when `o` is the start of gate group `g`. -/
theorem gateRow_at (g : Fin 4) (q : Fin 2048) (o : Nat) (ho : o = g.val * 2048) : (gateRow g q).val = o + q.val := by
  subst ho; rfl

/-- The narrowed inputs are the inputs. -/
theorem stage_x (i : S4096x1024.Idx) : V m c main_v17 i = (aX m c) i := by
  have e : @Eq (FVec Ideal S4096x1024 .bf16) (V m c main_v17) (truncf .bf16 (aX m c) bitsLt_bf16_f32) := by
    dsimp only [V, hostOps0]; after_results
  rw [e]; rfl

/-- The narrowed hidden states are the hidden states. -/
theorem stage_h (i : S4096x2048.Idx) : V m c main_v18 i = (aH m c) i := by
  have e : @Eq (FVec Ideal S4096x2048 .bf16) (V m c main_v18) (truncf .bf16 (aH m c) bitsLt_bf16_f32) := by
    dsimp only [V, hostOps0]; after_results
  rw [e]; rfl

/-- Gate group 0 of the input weights: row `n` is stacked row 0 + n. -/
theorem stage_wi0 (n : Fin 2048) (k : Fin 1024) :
    V m c main_v19 (ix2 n k) = (aWi m c) (ix2 (gateRow 0 n) k) := by
  have e : @Eq (FVec Ideal S2048x1024 .bf16) (V m c main_v19) (truncf .bf16 (extractStridedSlice S2048x1024 ![0, 0] (aWi m c) slices_S8192x1024_S2048x1024_0_0) bitsLt_bf16_f32) := by
    dsimp only [V, hostOps0]; after_results
  rw [e]
  show extractStridedSlice S2048x1024 ![0, 0] (aWi m c) slices_S8192x1024_S2048x1024_0_0 (ix2 n k) = _
  exact extractStridedSlice_apply _ _ _ (ix2 n k) (ix2 (gateRow 0 n) k) (fun a => match a with
    | ⟨0, _⟩ => gateRow_at 0 n 0 (by decide)
    | ⟨1, _⟩ => by show k.val = 0 + k.val; omega)

/-- Gate group 0 of the hidden weights: row `n` is stacked row 0 + n. -/
theorem stage_wh0 (n : Fin 2048) (k : Fin 2048) :
    V m c main_v23 (ix2 n k) = (aWh m c) (ix2 (gateRow 0 n) k) := by
  have e : @Eq (FVec Ideal S2048x2048 .bf16) (V m c main_v23) (truncf .bf16 (extractStridedSlice S2048x2048 ![0, 0] (aWh m c) slices_S8192x2048_S2048x2048_0_0) bitsLt_bf16_f32) := by
    dsimp only [V, hostOps0]; after_results
  rw [e]
  show extractStridedSlice S2048x2048 ![0, 0] (aWh m c) slices_S8192x2048_S2048x2048_0_0 (ix2 n k) = _
  exact extractStridedSlice_apply _ _ _ (ix2 n k) (ix2 (gateRow 0 n) k) (fun a => match a with
    | ⟨0, _⟩ => gateRow_at 0 n 0 (by decide)
    | ⟨1, _⟩ => by show k.val = 0 + k.val; omega)

/-- Gate group 0 of the summed biases, laid out as one row: entry `q` is the sum of the two biases at 0 + q. -/
theorem stage_b0 (q : Fin 2048) :
    V m c main_v13 (ix2 0 q) = (aBi m c) (ix1 (gateRow 0 q)) + (aBh m c) (ix1 (gateRow 0 q)) := by
  have e : @Eq (FVec Ideal S1x2048 .f32) (V m c main_v13) (shapeCast S1x2048 (extractStridedSlice S2048 ![0] (addf (aBi m c) (aBh m c)) slices_S8192_S2048_0) shapeCasts_S2048_S1x2048) := by
    dsimp only [V, hostOps0]; after_results; rfl
  rw [e]
  refine (shapeCast_apply _ _ (ix2 0 q) (ix1 q) ?_).trans ?_
  · rw [Shape.rowMajor_val_one, Shape.rowMajor_val_two]
    show q.val = 0 * 2048 + q.val
    omega
  · exact extractStridedSlice_apply _ _ _ (ix1 q) (ix1 (gateRow 0 q)) (fun a => match a with
      | ⟨0, _⟩ => gateRow_at 0 q 0 (by decide))

/-- Gate group 1 of the input weights: row `n` is stacked row 2048 + n. -/
theorem stage_wi1 (n : Fin 2048) (k : Fin 1024) :
    V m c main_v20 (ix2 n k) = (aWi m c) (ix2 (gateRow 1 n) k) := by
  have e : @Eq (FVec Ideal S2048x1024 .bf16) (V m c main_v20) (truncf .bf16 (extractStridedSlice S2048x1024 ![2048, 0] (aWi m c) slices_S8192x1024_S2048x1024_2048_0) bitsLt_bf16_f32) := by
    dsimp only [V, hostOps0]; after_results
  rw [e]
  show extractStridedSlice S2048x1024 ![2048, 0] (aWi m c) slices_S8192x1024_S2048x1024_2048_0 (ix2 n k) = _
  exact extractStridedSlice_apply _ _ _ (ix2 n k) (ix2 (gateRow 1 n) k) (fun a => match a with
    | ⟨0, _⟩ => gateRow_at 1 n 2048 (by decide)
    | ⟨1, _⟩ => by show k.val = 0 + k.val; omega)

/-- Gate group 1 of the hidden weights: row `n` is stacked row 2048 + n. -/
theorem stage_wh1 (n : Fin 2048) (k : Fin 2048) :
    V m c main_v24 (ix2 n k) = (aWh m c) (ix2 (gateRow 1 n) k) := by
  have e : @Eq (FVec Ideal S2048x2048 .bf16) (V m c main_v24) (truncf .bf16 (extractStridedSlice S2048x2048 ![2048, 0] (aWh m c) slices_S8192x2048_S2048x2048_2048_0) bitsLt_bf16_f32) := by
    dsimp only [V, hostOps0]; after_results
  rw [e]
  show extractStridedSlice S2048x2048 ![2048, 0] (aWh m c) slices_S8192x2048_S2048x2048_2048_0 (ix2 n k) = _
  exact extractStridedSlice_apply _ _ _ (ix2 n k) (ix2 (gateRow 1 n) k) (fun a => match a with
    | ⟨0, _⟩ => gateRow_at 1 n 2048 (by decide)
    | ⟨1, _⟩ => by show k.val = 0 + k.val; omega)

/-- Gate group 1 of the summed biases, laid out as one row: entry `q` is the sum of the two biases at 2048 + q. -/
theorem stage_b1 (q : Fin 2048) :
    V m c main_v14 (ix2 0 q) = (aBi m c) (ix1 (gateRow 1 q)) + (aBh m c) (ix1 (gateRow 1 q)) := by
  have e : @Eq (FVec Ideal S1x2048 .f32) (V m c main_v14) (shapeCast S1x2048 (extractStridedSlice S2048 ![2048] (addf (aBi m c) (aBh m c)) slices_S8192_S2048_2048) shapeCasts_S2048_S1x2048) := by
    dsimp only [V, hostOps0]; after_results; rfl
  rw [e]
  refine (shapeCast_apply _ _ (ix2 0 q) (ix1 q) ?_).trans ?_
  · rw [Shape.rowMajor_val_one, Shape.rowMajor_val_two]
    show q.val = 0 * 2048 + q.val
    omega
  · exact extractStridedSlice_apply _ _ _ (ix1 q) (ix1 (gateRow 1 q)) (fun a => match a with
      | ⟨0, _⟩ => gateRow_at 1 q 2048 (by decide))

/-- Gate group 2 of the input weights: row `n` is stacked row 4096 + n. -/
theorem stage_wi2 (n : Fin 2048) (k : Fin 1024) :
    V m c main_v21 (ix2 n k) = (aWi m c) (ix2 (gateRow 2 n) k) := by
  have e : @Eq (FVec Ideal S2048x1024 .bf16) (V m c main_v21) (truncf .bf16 (extractStridedSlice S2048x1024 ![4096, 0] (aWi m c) slices_S8192x1024_S2048x1024_4096_0) bitsLt_bf16_f32) := by
    dsimp only [V, hostOps0]; after_results
  rw [e]
  show extractStridedSlice S2048x1024 ![4096, 0] (aWi m c) slices_S8192x1024_S2048x1024_4096_0 (ix2 n k) = _
  exact extractStridedSlice_apply _ _ _ (ix2 n k) (ix2 (gateRow 2 n) k) (fun a => match a with
    | ⟨0, _⟩ => gateRow_at 2 n 4096 (by decide)
    | ⟨1, _⟩ => by show k.val = 0 + k.val; omega)

/-- Gate group 2 of the hidden weights: row `n` is stacked row 4096 + n. -/
theorem stage_wh2 (n : Fin 2048) (k : Fin 2048) :
    V m c main_v25 (ix2 n k) = (aWh m c) (ix2 (gateRow 2 n) k) := by
  have e : @Eq (FVec Ideal S2048x2048 .bf16) (V m c main_v25) (truncf .bf16 (extractStridedSlice S2048x2048 ![4096, 0] (aWh m c) slices_S8192x2048_S2048x2048_4096_0) bitsLt_bf16_f32) := by
    dsimp only [V, hostOps0]; after_results
  rw [e]
  show extractStridedSlice S2048x2048 ![4096, 0] (aWh m c) slices_S8192x2048_S2048x2048_4096_0 (ix2 n k) = _
  exact extractStridedSlice_apply _ _ _ (ix2 n k) (ix2 (gateRow 2 n) k) (fun a => match a with
    | ⟨0, _⟩ => gateRow_at 2 n 4096 (by decide)
    | ⟨1, _⟩ => by show k.val = 0 + k.val; omega)

/-- Gate group 2 of the summed biases, laid out as one row: entry `q` is the sum of the two biases at 4096 + q. -/
theorem stage_b2 (q : Fin 2048) :
    V m c main_v15 (ix2 0 q) = (aBi m c) (ix1 (gateRow 2 q)) + (aBh m c) (ix1 (gateRow 2 q)) := by
  have e : @Eq (FVec Ideal S1x2048 .f32) (V m c main_v15) (shapeCast S1x2048 (extractStridedSlice S2048 ![4096] (addf (aBi m c) (aBh m c)) slices_S8192_S2048_4096) shapeCasts_S2048_S1x2048) := by
    dsimp only [V, hostOps0]; after_results; rfl
  rw [e]
  refine (shapeCast_apply _ _ (ix2 0 q) (ix1 q) ?_).trans ?_
  · rw [Shape.rowMajor_val_one, Shape.rowMajor_val_two]
    show q.val = 0 * 2048 + q.val
    omega
  · exact extractStridedSlice_apply _ _ _ (ix1 q) (ix1 (gateRow 2 q)) (fun a => match a with
      | ⟨0, _⟩ => gateRow_at 2 q 4096 (by decide))

/-- Gate group 3 of the input weights: row `n` is stacked row 6144 + n. -/
theorem stage_wi3 (n : Fin 2048) (k : Fin 1024) :
    V m c main_v22 (ix2 n k) = (aWi m c) (ix2 (gateRow 3 n) k) := by
  have e : @Eq (FVec Ideal S2048x1024 .bf16) (V m c main_v22) (truncf .bf16 (extractStridedSlice S2048x1024 ![6144, 0] (aWi m c) slices_S8192x1024_S2048x1024_6144_0) bitsLt_bf16_f32) := by
    dsimp only [V, hostOps0]; after_results
  rw [e]
  show extractStridedSlice S2048x1024 ![6144, 0] (aWi m c) slices_S8192x1024_S2048x1024_6144_0 (ix2 n k) = _
  exact extractStridedSlice_apply _ _ _ (ix2 n k) (ix2 (gateRow 3 n) k) (fun a => match a with
    | ⟨0, _⟩ => gateRow_at 3 n 6144 (by decide)
    | ⟨1, _⟩ => by show k.val = 0 + k.val; omega)

/-- Gate group 3 of the hidden weights: row `n` is stacked row 6144 + n. -/
theorem stage_wh3 (n : Fin 2048) (k : Fin 2048) :
    V m c main_v26 (ix2 n k) = (aWh m c) (ix2 (gateRow 3 n) k) := by
  have e : @Eq (FVec Ideal S2048x2048 .bf16) (V m c main_v26) (truncf .bf16 (extractStridedSlice S2048x2048 ![6144, 0] (aWh m c) slices_S8192x2048_S2048x2048_6144_0) bitsLt_bf16_f32) := by
    dsimp only [V, hostOps0]; after_results
  rw [e]
  show extractStridedSlice S2048x2048 ![6144, 0] (aWh m c) slices_S8192x2048_S2048x2048_6144_0 (ix2 n k) = _
  exact extractStridedSlice_apply _ _ _ (ix2 n k) (ix2 (gateRow 3 n) k) (fun a => match a with
    | ⟨0, _⟩ => gateRow_at 3 n 6144 (by decide)
    | ⟨1, _⟩ => by show k.val = 0 + k.val; omega)

/-- Gate group 3 of the summed biases, laid out as one row: entry `q` is the sum of the two biases at 6144 + q. -/
theorem stage_b3 (q : Fin 2048) :
    V m c main_v16 (ix2 0 q) = (aBi m c) (ix1 (gateRow 3 q)) + (aBh m c) (ix1 (gateRow 3 q)) := by
  have e : @Eq (FVec Ideal S1x2048 .f32) (V m c main_v16) (shapeCast S1x2048 (extractStridedSlice S2048 ![6144] (addf (aBi m c) (aBh m c)) slices_S8192_S2048_6144) shapeCasts_S2048_S1x2048) := by
    dsimp only [V, hostOps0]; after_results; rfl
  rw [e]
  refine (shapeCast_apply _ _ (ix2 0 q) (ix1 q) ?_).trans ?_
  · rw [Shape.rowMajor_val_one, Shape.rowMajor_val_two]
    show q.val = 0 * 2048 + q.val
    omega
  · exact extractStridedSlice_apply _ _ _ (ix1 q) (ix1 (gateRow 3 q)) (fun a => match a with
      | ⟨0, _⟩ => gateRow_at 3 q 6144 (by decide))

end Cert.KernelIdeal.Stage

end
-- ==== Proof.KernelCover.lean ====
/-
  The kernel's output blocks tile the output arrays.

  The grid has 32 points: 8 column tiles by 4 row tiles. Both output arrays have 4096 rows and 2048 columns and are cut
  into blocks of 1024 rows by 256 columns, 4 blocks down and 8 across. At a grid point both output windows sit on the
  block whose index is (row tile, column tile), every (row tile, column tile) in 4 × 8 is some point's, and every point
  writes its block back. So an array index (r, s) lies in the block of the point whose tiles are (r / 1024, s / 256):
  the 32 blocks cover the whole array.
-/
import proofs.«159760_j5712306503741_1_alg».proof.Proof.Gen.KernelIdeal.Value

noncomputable section

namespace Cert.KernelIdeal.Cover

open Cert.KernelIdeal Cert.KernelIdeal.Gen Idealize.ShloMosaic Idealize.ShloMosaic.TcCoe Idealize.SL.Sem
open Idealize.ShloMosaic.Pipeline (Dat)

/-- The block index of output window 16 stays inside the 4 × 8 blocks of the array (decided over the 32 points). -/
theorem bounds16 : ∀ t : Fin cfg0.N, win0_16.index t (0 : Fin 2) < 4 ∧ win0_16.index t (1 : Fin 2) < 8 :=
  (by decide +kernel : ∀ t : Fin grid0.N, _)

/-- The two output windows sit on the same block at every point (decided over the 32 points). -/
theorem same15 : ∀ t : Fin cfg0.N, win0_15.index t (0 : Fin 2) = win0_16.index t (0 : Fin 2)
    ∧ win0_15.index t (1 : Fin 2) = win0_16.index t (1 : Fin 2) :=
  (by decide +kernel : ∀ t : Fin grid0.N, _)

/-- Every one of the 4 × 8 blocks is some point's block of output window 16. -/
theorem onto16 : ∀ (q0 : Fin 4) (q1 : Fin 8), ∃ t : Fin cfg0.N, win0_16.index t = ![q0.val, q1.val] :=
  (by decide +kernel : ∀ (q0 : Fin 4) (q1 : Fin 8), ∃ t : Fin grid0.N, win0_16.index t = ![q0.val, q1.val])

/-- Every one of the 4 × 8 blocks is some point's block of output window 15. -/
theorem onto15 : ∀ (q0 : Fin 4) (q1 : Fin 8), ∃ t : Fin cfg0.N, win0_15.index t = ![q0.val, q1.val] :=
  (by decide +kernel : ∀ (q0 : Fin 4) (q1 : Fin 8), ∃ t : Fin grid0.N, win0_15.index t = ![q0.val, q1.val])

/-- An index of the array is in point t's block of window 16 iff each coordinate is in the block's range on its axis. -/
theorem mem_blk16 (t : Fin cfg0.N) (i : S4096x2048.Idx) :
    i ∈ ((cfg0.win 16).blk t).view.set ↔ ∀ a : Fin 2, win0_16.index t a * S1024x256.size a ≤ (i a).val
      ∧ (i a).val < win0_16.index t a * S1024x256.size a + S1024x256.size a := by
  show i ∈ ((View.whole main_v27_1).slice (win0_16.rect t)).set ↔ _
  rw [View.set_slice_whole, Rect.mem_set_unit]
  exact Iff.rfl

/-- An index of the array is in point t's block of window 15 iff each coordinate is in the block's range on its axis. -/
theorem mem_blk15 (t : Fin cfg0.N) (i : S4096x2048.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v27_0).slice (win0_15.rect t)).set ↔ _
  rw [View.set_slice_whole, Rect.mem_set_unit]
  exact Iff.rfl

/-- Every index (r, s) of the second output array is written back: it lies in the block (r / 1024, s / 256). -/
theorem cover16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := onto16 ⟨(i 0).val / 1024, by omega⟩ ⟨(i 1).val / 256, by omega⟩
  have q0 : win0_16.index t (0 : Fin 2) = (i 0).val / 1024 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 1024 ≤ (i 0).val ∧ (i 0).val < win0_16.index t (0 : Fin 2) * 1024 + 1024; omega
  | ⟨1, _⟩ => show win0_16.index t (1 : Fin 2) * 256 ≤ (i 1).val ∧ (i 1).val < win0_16.index t (1 : Fin 2) * 256 + 256; omega

/-- Every index (r, s) of the first output array is written back: it lies in the block (r / 1024, s / 256). -/
theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := onto15 ⟨(i 0).val / 1024, by omega⟩ ⟨(i 1).val / 256, by omega⟩
  have q0 : win0_15.index t (0 : Fin 2) = (i 0).val / 1024 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 256 ≤ (i 1).val ∧ (i 1).val < win0_15.index t (1 : Fin 2) * 256 + 256; omega

end Cert.KernelIdeal.Cover

end
-- ==== Proof.KernelFlush.lean ====
/-
  What each grid point writes back, and the two arrays after the run.

  The grid has 8 × 4 points; point t works on batch tile I = tI t (of 4) and state tile J = tJ t (of 8), which are the
  two block indices of the output windows at t. Every input window's block at t is the piece of its array that the
  tiles name: rows I·1024 … of the inputs and hidden states, rows J·256 … of each gate group's weights, entries
  J·256 … of each gate group's bias row, tile (I, J) of the old cell state (the index maps agree with the output's,
  decided over the 32 points). So the fifteen blocks at t are the operands of the cell at tile (I, J), the body's two
  results are the new hidden and cell states restricted to that tile, and, the tiles covering the arrays, the two
  output arrays end holding the whole new hidden state and the whole new cell state.
-/
import proofs.«159760_j5712306503741_1_alg».proof.Proof.Gen.KernelIdeal.Value
import proofs.«159760_j5712306503741_1_alg».proof.Proof.LstmSpec
import proofs.«159760_j5712306503741_1_alg».proof.Proof.BlockCell
import proofs.«159760_j5712306503741_1_alg».proof.Proof.KernelStage
import proofs.«159760_j5712306503741_1_alg».proof.Proof.KernelCover

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx Cert.Lstm Cert.KernelIdeal.Block Cert.KernelIdeal.Stage
open Idealize.ShloMosaic.Pipeline (Dat)

/-- The batch tile and the state tile of grid point `t`: the output windows' two block indices there. -/
def tI (t : Fin cfg0.N) : Fin 4 := ⟨win0_16.index t (0 : Fin 2), (Cover.bounds16 t).1⟩
def tJ (t : Fin cfg0.N) : Fin 8 := ⟨win0_16.index t (1 : Fin 2), (Cover.bounds16 t).2⟩

theorem zeroOff : (![0, 0] : Fin 2 → Nat) = fun _ => 0 := funext fun a => by fin_cases a <;> rfl

/-! ## Each input window's block index at a point, against the output's (decided over the grid) -/
theorem at0 : ∀ t : Fin cfg0.N, win0_0.index t (0 : Fin 2) = win0_16.index t (0 : Fin 2) ∧ win0_0.index t (1 : Fin 2) = 0 :=
  (by decide +kernel : ∀ t : Fin grid0.N, _)
theorem at1 : ∀ t : Fin cfg0.N, win0_1.index t (0 : Fin 2) = win0_16.index t (0 : Fin 2) ∧ win0_1.index t (1 : Fin 2) = 0 :=
  (by decide +kernel : ∀ t : Fin grid0.N, _)
theorem at2 : ∀ t : Fin cfg0.N, win0_2.index t (0 : Fin 2) = win0_16.index t (1 : Fin 2) ∧ win0_2.index t (1 : Fin 2) = 0 :=
  (by decide +kernel : ∀ t : Fin grid0.N, _)
theorem at3 : ∀ t : Fin cfg0.N, win0_3.index t (0 : Fin 2) = win0_16.index t (1 : Fin 2) ∧ win0_3.index t (1 : Fin 2) = 0 :=
  (by decide +kernel : ∀ t : Fin grid0.N, _)
theorem at4 : ∀ t : Fin cfg0.N, win0_4.index t (0 : Fin 2) = win0_16.index t (1 : Fin 2) ∧ win0_4.index t (1 : Fin 2) = 0 :=
  (by decide +kernel : ∀ t : Fin grid0.N, _)
theorem at5 : ∀ t : Fin cfg0.N, win0_5.index t (0 : Fin 2) = win0_16.index t (1 : Fin 2) ∧ win0_5.index t (1 : Fin 2) = 0 :=
  (by decide +kernel : ∀ t : Fin grid0.N, _)
theorem at6 : ∀ t : Fin cfg0.N, win0_6.index t (0 : Fin 2) = win0_16.index t (1 : Fin 2) ∧ win0_6.index t (1 : Fin 2) = 0 :=
  (by decide +kernel : ∀ t : Fin grid0.N, _)
theorem at7 : ∀ t : Fin cfg0.N, win0_7.index t (0 : Fin 2) = win0_16.index t (1 : Fin 2) ∧ win0_7.index t (1 : Fin 2) = 0 :=
  (by decide +kernel : ∀ t : Fin grid0.N, _)
theorem at8 : ∀ t : Fin cfg0.N, win0_8.index t (0 : Fin 2) = win0_16.index t (1 : Fin 2) ∧ win0_8.index t (1 : Fin 2) = 0 :=
  (by decide +kernel : ∀ t : Fin grid0.N, _)
theorem at9 : ∀ t : Fin cfg0.N, win0_9.index t (0 : Fin 2) = win0_16.index t (1 : Fin 2) ∧ win0_9.index t (1 : Fin 2) = 0 :=
  (by decide +kernel : ∀ t : Fin grid0.N, _)
theorem at10 : ∀ t : Fin cfg0.N, win0_10.index t (0 : Fin 2) = win0_16.index t (0 : Fin 2) ∧ win0_10.index t (1 : Fin 2) = win0_16.index t (1 : Fin 2) :=
  (by decide +kernel : ∀ t : Fin grid0.N, _)
theorem at11 : ∀ t : Fin cfg0.N, win0_11.index t (0 : Fin 2) = 0 ∧ win0_11.index t (1 : Fin 2) = win0_16.index t (1 : Fin 2) :=
  (by decide +kernel : ∀ t : Fin grid0.N, _)
theorem at12 : ∀ t : Fin cfg0.N, win0_12.index t (0 : Fin 2) = 0 ∧ win0_12.index t (1 : Fin 2) = win0_16.index t (1 : Fin 2) :=
  (by decide +kernel : ∀ t : Fin grid0.N, _)
theorem at13 : ∀ t : Fin cfg0.N, win0_13.index t (0 : Fin 2) = 0 ∧ win0_13.index t (1 : Fin 2) = win0_16.index t (1 : Fin 2) :=
  (by decide +kernel : ∀ t : Fin grid0.N, _)
theorem at14 : ∀ t : Fin cfg0.N, win0_14.index t (0 : Fin 2) = 0 ∧ win0_14.index t (1 : Fin 2) = win0_16.index t (1 : Fin 2) :=
  (by decide +kernel : ∀ t : Fin grid0.N, _)

/-! ## Where an entry of a block sits in its array -/
theorem emb0 (t : Fin cfg0.N) (r : Fin 1024) (k : Fin 1024) :
    ((cfg0.win 0).blk t).view.emb (ix2 r k) = ix2 (rowOf (tI t) r) k := by
  obtain ⟨e0, e1⟩ := at0 t
  funext a; apply Fin.ext
  match a with
  | ⟨0, _⟩ => show win0_0.index t (0 : Fin 2) * 1024 + 1 * r.val = win0_16.index t (0 : Fin 2) * 1024 + r.val; omega
  | ⟨1, _⟩ => show win0_0.index t (1 : Fin 2) * 1024 + 1 * k.val = k.val; omega

theorem emb1 (t : Fin cfg0.N) (r : Fin 1024) (k : Fin 2048) :
    ((cfg0.win 1).blk t).view.emb (ix2 r k) = ix2 (rowOf (tI t) r) k := by
  obtain ⟨e0, e1⟩ := at1 t
  funext a; apply Fin.ext
  match a with
  | ⟨0, _⟩ => show win0_1.index t (0 : Fin 2) * 1024 + 1 * r.val = win0_16.index t (0 : Fin 2) * 1024 + r.val; omega
  | ⟨1, _⟩ => show win0_1.index t (1 : Fin 2) * 2048 + 1 * k.val = k.val; omega

theorem emb2 (t : Fin cfg0.N) (s : Fin 256) (k : Fin 1024) :
    ((cfg0.win 2).blk t).view.emb (ix2 s k) = ix2 (colOf (tJ t) s) k := by
  obtain ⟨e0, e1⟩ := at2 t
  funext a; apply Fin.ext
  match a with
  | ⟨0, _⟩ => show win0_2.index t (0 : Fin 2) * 256 + 1 * s.val = win0_16.index t (1 : Fin 2) * 256 + s.val; omega
  | ⟨1, _⟩ => show win0_2.index t (1 : Fin 2) * 1024 + 1 * k.val = k.val; omega

theorem emb3 (t : Fin cfg0.N) (s : Fin 256) (k : Fin 1024) :
    ((cfg0.win 3).blk t).view.emb (ix2 s k) = ix2 (colOf (tJ t) s) k := by
  obtain ⟨e0, e1⟩ := at3 t
  funext a; apply Fin.ext
  match a with
  | ⟨0, _⟩ => show win0_3.index t (0 : Fin 2) * 256 + 1 * s.val = win0_16.index t (1 : Fin 2) * 256 + s.val; omega
  | ⟨1, _⟩ => show win0_3.index t (1 : Fin 2) * 1024 + 1 * k.val = k.val; omega

theorem emb4 (t : Fin cfg0.N) (s : Fin 256) (k : Fin 1024) :
    ((cfg0.win 4).blk t).view.emb (ix2 s k) = ix2 (colOf (tJ t) s) k := by
  obtain ⟨e0, e1⟩ := at4 t
  funext a; apply Fin.ext
  match a with
  | ⟨0, _⟩ => show win0_4.index t (0 : Fin 2) * 256 + 1 * s.val = win0_16.index t (1 : Fin 2) * 256 + s.val; omega
  | ⟨1, _⟩ => show win0_4.index t (1 : Fin 2) * 1024 + 1 * k.val = k.val; omega

theorem emb5 (t : Fin cfg0.N) (s : Fin 256) (k : Fin 1024) :
    ((cfg0.win 5).blk t).view.emb (ix2 s k) = ix2 (colOf (tJ t) s) k := by
  obtain ⟨e0, e1⟩ := at5 t
  funext a; apply Fin.ext
  match a with
  | ⟨0, _⟩ => show win0_5.index t (0 : Fin 2) * 256 + 1 * s.val = win0_16.index t (1 : Fin 2) * 256 + s.val; omega
  | ⟨1, _⟩ => show win0_5.index t (1 : Fin 2) * 1024 + 1 * k.val = k.val; omega

theorem emb6 (t : Fin cfg0.N) (s : Fin 256) (k : Fin 2048) :
    ((cfg0.win 6).blk t).view.emb (ix2 s k) = ix2 (colOf (tJ t) s) k := by
  obtain ⟨e0, e1⟩ := at6 t
  funext a; apply Fin.ext
  match a with
  | ⟨0, _⟩ => show win0_6.index t (0 : Fin 2) * 256 + 1 * s.val = win0_16.index t (1 : Fin 2) * 256 + s.val; omega
  | ⟨1, _⟩ => show win0_6.index t (1 : Fin 2) * 2048 + 1 * k.val = k.val; omega

theorem emb7 (t : Fin cfg0.N) (s : Fin 256) (k : Fin 2048) :
    ((cfg0.win 7).blk t).view.emb (ix2 s k) = ix2 (colOf (tJ t) s) k := by
  obtain ⟨e0, e1⟩ := at7 t
  funext a; apply Fin.ext
  match a with
  | ⟨0, _⟩ => show win0_7.index t (0 : Fin 2) * 256 + 1 * s.val = win0_16.index t (1 : Fin 2) * 256 + s.val; omega
  | ⟨1, _⟩ => show win0_7.index t (1 : Fin 2) * 2048 + 1 * k.val = k.val; omega

theorem emb8 (t : Fin cfg0.N) (s : Fin 256) (k : Fin 2048) :
    ((cfg0.win 8).blk t).view.emb (ix2 s k) = ix2 (colOf (tJ t) s) k := by
  obtain ⟨e0, e1⟩ := at8 t
  funext a; apply Fin.ext
  match a with
  | ⟨0, _⟩ => show win0_8.index t (0 : Fin 2) * 256 + 1 * s.val = win0_16.index t (1 : Fin 2) * 256 + s.val; omega
  | ⟨1, _⟩ => show win0_8.index t (1 : Fin 2) * 2048 + 1 * k.val = k.val; omega

theorem emb9 (t : Fin cfg0.N) (s : Fin 256) (k : Fin 2048) :
    ((cfg0.win 9).blk t).view.emb (ix2 s k) = ix2 (colOf (tJ t) s) k := by
  obtain ⟨e0, e1⟩ := at9 t
  funext a; apply Fin.ext
  match a with
  | ⟨0, _⟩ => show win0_9.index t (0 : Fin 2) * 256 + 1 * s.val = win0_16.index t (1 : Fin 2) * 256 + s.val; omega
  | ⟨1, _⟩ => show win0_9.index t (1 : Fin 2) * 2048 + 1 * k.val = k.val; omega

theorem emb10 (t : Fin cfg0.N) (r : Fin 1024) (s : Fin 256) :
    ((cfg0.win 10).blk t).view.emb (ix2 r s) = ix2 (rowOf (tI t) r) (colOf (tJ t) s) := by
  obtain ⟨e0, e1⟩ := at10 t
  funext a; apply Fin.ext
  match a with
  | ⟨0, _⟩ => show win0_10.index t (0 : Fin 2) * 1024 + 1 * r.val = win0_16.index t (0 : Fin 2) * 1024 + r.val; omega
  | ⟨1, _⟩ => show win0_10.index t (1 : Fin 2) * 256 + 1 * s.val = win0_16.index t (1 : Fin 2) * 256 + s.val; omega

theorem emb11 (t : Fin cfg0.N) (s : Fin 256) :
    ((cfg0.win 11).blk t).view.emb (ix2 (0 : Fin 1) s) = ix2 (0 : Fin 1) (colOf (tJ t) s) := by
  obtain ⟨e0, e1⟩ := at11 t
  funext a; apply Fin.ext
  match a with
  | ⟨0, _⟩ => show win0_11.index t (0 : Fin 2) * 1 + 1 * 0 = 0; omega
  | ⟨1, _⟩ => show win0_11.index t (1 : Fin 2) * 256 + 1 * s.val = win0_16.index t (1 : Fin 2) * 256 + s.val; omega

theorem emb12 (t : Fin cfg0.N) (s : Fin 256) :
    ((cfg0.win 12).blk t).view.emb (ix2 (0 : Fin 1) s) = ix2 (0 : Fin 1) (colOf (tJ t) s) := by
  obtain ⟨e0, e1⟩ := at12 t
  funext a; apply Fin.ext
  match a with
  | ⟨0, _⟩ => show win0_12.index t (0 : Fin 2) * 1 + 1 * 0 = 0; omega
  | ⟨1, _⟩ => show win0_12.index t (1 : Fin 2) * 256 + 1 * s.val = win0_16.index t (1 : Fin 2) * 256 + s.val; omega

theorem emb13 (t : Fin cfg0.N) (s : Fin 256) :
    ((cfg0.win 13).blk t).view.emb (ix2 (0 : Fin 1) s) = ix2 (0 : Fin 1) (colOf (tJ t) s) := by
  obtain ⟨e0, e1⟩ := at13 t
  funext a; apply Fin.ext
  match a with
  | ⟨0, _⟩ => show win0_13.index t (0 : Fin 2) * 1 + 1 * 0 = 0; omega
  | ⟨1, _⟩ => show win0_13.index t (1 : Fin 2) * 256 + 1 * s.val = win0_16.index t (1 : Fin 2) * 256 + s.val; omega

theorem emb14 (t : Fin cfg0.N) (s : Fin 256) :
    ((cfg0.win 14).blk t).view.emb (ix2 (0 : Fin 1) s) = ix2 (0 : Fin 1) (colOf (tJ t) s) := by
  obtain ⟨e0, e1⟩ := at14 t
  funext a; apply Fin.ext
  match a with
  | ⟨0, _⟩ => show win0_14.index t (0 : Fin 2) * 1 + 1 * 0 = 0; omega
  | ⟨1, _⟩ => show win0_14.index t (1 : Fin 2) * 256 + 1 * s.val = win0_16.index t (1 : Fin 2) * 256 + s.val; omega

theorem emb16 (t : Fin cfg0.N) (r : Fin 1024) (s : Fin 256) :
    ((cfg0.win 16).blk t).view.emb (ix2 r s) = ix2 (rowOf (tI t) r) (colOf (tJ t) s) := by
  funext a; apply Fin.ext
  match a with
  | ⟨0, _⟩ => show win0_16.index t (0 : Fin 2) * 1024 + 1 * r.val = win0_16.index t (0 : Fin 2) * 1024 + r.val; omega
  | ⟨1, _⟩ => show win0_16.index t (1 : Fin 2) * 256 + 1 * s.val = win0_16.index t (1 : Fin 2) * 256 + s.val; omega

theorem emb15 (t : Fin cfg0.N) (r : Fin 1024) (s : Fin 256) :
    ((cfg0.win 15).blk t).view.emb (ix2 r s) = ix2 (rowOf (tI t) r) (colOf (tJ t) s) := by
  obtain ⟨e0, e1⟩ := Cover.same15 t
  funext a; apply Fin.ext
  match a with
  | ⟨0, _⟩ => show win0_15.index t (0 : Fin 2) * 1024 + 1 * r.val = win0_16.index t (0 : Fin 2) * 1024 + r.val; omega
  | ⟨1, _⟩ => show win0_15.index t (1 : Fin 2) * 256 + 1 * s.val = win0_16.index t (1 : Fin 2) * 256 + s.val; omega

variable (m : (ℓ : Loc nD τ sig) → Buf (Elt Ideal) ℓ) (ρ : Dev nD → PrngReg) (c : Dev nD)

/-! ## Each input block at a point, entry by entry, as the argument it is a piece of -/
theorem blkX (t : Fin cfg0.N) (r : Fin 1024) (k : Fin 1024) :
    iblk m c 0 t (ix2 r k) = aX m c (ix2 (rowOf (tI t) r) k) := by
  show V m c main_v17 (((cfg0.win 0).blk t).view.emb (ix2 r k)) = _
  rw [emb0, Stage.stage_x]

theorem blkH (t : Fin cfg0.N) (r : Fin 1024) (k : Fin 2048) :
    iblk m c 1 t (ix2 r k) = aH m c (ix2 (rowOf (tI t) r) k) := by
  show V m c main_v18 (((cfg0.win 1).blk t).view.emb (ix2 r k)) = _
  rw [emb1, Stage.stage_h]

theorem blkC (t : Fin cfg0.N) (r : Fin 1024) (s : Fin 256) :
    iblk m c 10 t (ix2 r s) = aC m c (ix2 (rowOf (tI t) r) (colOf (tJ t) s)) := by
  show V m c main_arg2 (((cfg0.win 10).blk t).view.emb (ix2 r s)) = _
  rw [emb10, V_main_arg2]

theorem blkW0 (t : Fin cfg0.N) (s : Fin 256) (k : Fin 1024) :
    iblk m c 2 t (ix2 s k) = aWi m c (ix2 (gateRow 0 (colOf (tJ t) s)) k) := by
  show V m c main_v19 (((cfg0.win 2).blk t).view.emb (ix2 s k)) = _
  rw [emb2, Stage.stage_wi0]

theorem blkU0 (t : Fin cfg0.N) (s : Fin 256) (k : Fin 2048) :
    iblk m c 6 t (ix2 s k) = aWh m c (ix2 (gateRow 0 (colOf (tJ t) s)) k) := by
  show V m c main_v23 (((cfg0.win 6).blk t).view.emb (ix2 s k)) = _
  rw [emb6, Stage.stage_wh0]

theorem blkB0 (t : Fin cfg0.N) (s : Fin 256) :
    iblk m c 11 t (ix2 (0 : Fin 1) s) = aBi m c (ix1 (gateRow 0 (colOf (tJ t) s))) + aBh m c (ix1 (gateRow 0 (colOf (tJ t) s))) := by
  show V m c main_v13 (((cfg0.win 11).blk t).view.emb (ix2 (0 : Fin 1) s)) = _
  rw [emb11, Stage.stage_b0]

theorem blkW1 (t : Fin cfg0.N) (s : Fin 256) (k : Fin 1024) :
    iblk m c 3 t (ix2 s k) = aWi m c (ix2 (gateRow 1 (colOf (tJ t) s)) k) := by
  show V m c main_v20 (((cfg0.win 3).blk t).view.emb (ix2 s k)) = _
  rw [emb3, Stage.stage_wi1]

theorem blkU1 (t : Fin cfg0.N) (s : Fin 256) (k : Fin 2048) :
    iblk m c 7 t (ix2 s k) = aWh m c (ix2 (gateRow 1 (colOf (tJ t) s)) k) := by
  show V m c main_v24 (((cfg0.win 7).blk t).view.emb (ix2 s k)) = _
  rw [emb7, Stage.stage_wh1]

theorem blkB1 (t : Fin cfg0.N) (s : Fin 256) :
    iblk m c 12 t (ix2 (0 : Fin 1) s) = aBi m c (ix1 (gateRow 1 (colOf (tJ t) s))) + aBh m c (ix1 (gateRow 1 (colOf (tJ t) s))) := by
  show V m c main_v14 (((cfg0.win 12).blk t).view.emb (ix2 (0 : Fin 1) s)) = _
  rw [emb12, Stage.stage_b1]

theorem blkW2 (t : Fin cfg0.N) (s : Fin 256) (k : Fin 1024) :
    iblk m c 4 t (ix2 s k) = aWi m c (ix2 (gateRow 2 (colOf (tJ t) s)) k) := by
  show V m c main_v21 (((cfg0.win 4).blk t).view.emb (ix2 s k)) = _
  rw [emb4, Stage.stage_wi2]

theorem blkU2 (t : Fin cfg0.N) (s : Fin 256) (k : Fin 2048) :
    iblk m c 8 t (ix2 s k) = aWh m c (ix2 (gateRow 2 (colOf (tJ t) s)) k) := by
  show V m c main_v25 (((cfg0.win 8).blk t).view.emb (ix2 s k)) = _
  rw [emb8, Stage.stage_wh2]

theorem blkB2 (t : Fin cfg0.N) (s : Fin 256) :
    iblk m c 13 t (ix2 (0 : Fin 1) s) = aBi m c (ix1 (gateRow 2 (colOf (tJ t) s))) + aBh m c (ix1 (gateRow 2 (colOf (tJ t) s))) := by
  show V m c main_v15 (((cfg0.win 13).blk t).view.emb (ix2 (0 : Fin 1) s)) = _
  rw [emb13, Stage.stage_b2]

theorem blkW3 (t : Fin cfg0.N) (s : Fin 256) (k : Fin 1024) :
    iblk m c 5 t (ix2 s k) = aWi m c (ix2 (gateRow 3 (colOf (tJ t) s)) k) := by
  show V m c main_v22 (((cfg0.win 5).blk t).view.emb (ix2 s k)) = _
  rw [emb5, Stage.stage_wi3]

theorem blkU3 (t : Fin cfg0.N) (s : Fin 256) (k : Fin 2048) :
    iblk m c 9 t (ix2 s k) = aWh m c (ix2 (gateRow 3 (colOf (tJ t) s)) k) := by
  show V m c main_v26 (((cfg0.win 9).blk t).view.emb (ix2 s k)) = _
  rw [emb9, Stage.stage_wh3]

theorem blkB3 (t : Fin cfg0.N) (s : Fin 256) :
    iblk m c 14 t (ix2 (0 : Fin 1) s) = aBi m c (ix1 (gateRow 3 (colOf (tJ t) s))) + aBh m c (ix1 (gateRow 3 (colOf (tJ t) s))) := by
  show V m c main_v16 (((cfg0.win 14).blk t).view.emb (ix2 (0 : Fin 1) s)) = _
  rw [emb14, Stage.stage_b3]

/-- The fifteen input blocks at point `t` are the cell's operands at tile (tI t, tJ t). -/
theorem blockOf (t : Fin cfg0.N) :
    BlockOf (aX m c) (aH m c) (aC m c) (aWi m c) (aWh m c) (aBi m c) (aBh m c) (tI t) (tJ t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  hx := blkX m c t
  hh := blkH m c t
  hc := blkC m c t
  hw0 := blkW0 m c t
  hu0 := blkU0 m c t
  hb0 := blkB0 m c t
  hw1 := blkW1 m c t
  hu1 := blkU1 m c t
  hb1 := blkB1 m c t
  hw2 := blkW2 m c t
  hu2 := blkU2 m c t
  hb2 := blkB2 m c t
  hw3 := blkW3 m c t
  hu3 := blkU3 m c t
  hb3 := blkB3 m c t

/-- Point `t` writes back tile (tI t, tJ t) of the new cell state. -/
theorem flushedC (t : Fin cfg0.N) :
    (dats m 0 c).flushed 16 t = ((cfg0.win 16).blk t).view.read (Elt Ideal) (outC (aX m c) (aH m c) (aC m c) (aWi m c) (aWh m c) (aBi m c) (aBh m c)) := by
  rw [Value.flushed16]
  unfold out0_16
  rw [View.canon_unit_zero zeroOff]
  simp only [View.ld_unit_zero (S := S1024x1024) zeroOff, View.ld_unit_zero (S := S1024x2048) zeroOff, View.ld_unit_zero (S := S256x1024) zeroOff, View.ld_unit_zero (S := S256x2048) zeroOff, View.ld_unit_zero (S := S1x256) zeroOff, View.ld_unit_zero (S := S1024x256) zeroOff]
  funext j
  obtain ⟨r, s, rfl⟩ : ∃ (r : Fin 1024) (s : Fin 256), j = ix2 r s := ⟨j 0, j 1, eq_ix2 (n0 := 1024) (n1 := 256) j⟩
  refine (cellC (blockOf m c t) r s).trans ?_
  show _ = outC (aX m c) (aH m c) (aC m c) (aWi m c) (aWh m c) (aBi m c) (aBh m c) (((cfg0.win 16).blk t).view.emb (ix2 r s))
  rw [emb16]
  rfl

/-- Point `t` writes back tile (tI t, tJ t) of the new hidden state. -/
theorem flushedH (t : Fin cfg0.N) :
    (dats m 0 c).flushed 15 t = ((cfg0.win 15).blk t).view.read (Elt Ideal) (outH (aX m c) (aH m c) (aC m c) (aWi m c) (aWh m c) (aBi m c) (aBh m c)) := by
  rw [Value.flushed15]
  unfold out0_15
  rw [View.canon_unit_zero zeroOff]
  simp only [View.ld_unit_zero (S := S1024x1024) zeroOff, View.ld_unit_zero (S := S1024x2048) zeroOff, View.ld_unit_zero (S := S256x1024) zeroOff, View.ld_unit_zero (S := S256x2048) zeroOff, View.ld_unit_zero (S := S1x256) zeroOff, View.ld_unit_zero (S := S1024x256) zeroOff]
  funext j
  obtain ⟨r, s, rfl⟩ : ∃ (r : Fin 1024) (s : Fin 256), j = ix2 r s := ⟨j 0, j 1, eq_ix2 (n0 := 1024) (n1 := 256) j⟩
  refine (cellH (blockOf m c t) r s).trans ?_
  show _ = outH (aX m c) (aH m c) (aC m c) (aWi m c) (aWh m c) (aBi m c) (aBh m c) (((cfg0.win 15).blk t).view.emb (ix2 r s))
  rw [emb15]
  rfl

/-- After the run the second output array is the new cell state. -/
theorem finalC : (dats m 0 c).arrAt 16 cfg0.N = outC (aX m c) (aH m c) (aC m c) (aWi m c) (aWh m c) (aBi m c) (aBh m c) :=
  (dats m 0 c).arrAt_eq_of_cover 16 _ (fun t _ => flushedC m c t) Cover.cover16

/-- After the run the first output array is the new hidden state. -/
theorem finalH : (dats m 0 c).arrAt 15 cfg0.N = outH (aX m c) (aH m c) (aC m c) (aWi m c) (aWh m c) (aBi m c) (aBh m c) :=
  (dats m 0 c).arrAt_eq_of_cover 15 _ (fun t _ => flushedH m c t) Cover.cover15

/-- The kernel's run: it terminates without a fault, the two results are the new hidden state and the new cell state of
    the argument arrays, and the arguments are unchanged. -/
theorem run : θ_run defs (onTc (τ := τ) (main (F := Ideal))) ⟨m, fun _ => 0, ρ⟩ fun r => ∀ c : Dev nD,
      r.2.mem ((c : Thread nD τ).loc main_v27_0) = outH (aX m c) (aH m c) (aC m c) (aWi m c) (aWh m c) (aBi m c) (aBh m c)
      ∧ r.2.mem ((c : Thread nD τ).loc main_v27_1) = outC (aX m c) (aH m c) (aC m c) (aWi m c) (aWh m c) (aBi m c) (aBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalH m c), (h c).2.1.trans (finalC m c), (h c).2.2⟩)
    (Value.run_blocks m ρ)

end Cert.KernelIdeal.Cell

end
-- ==== Proof.lean ====
/-
  One step of an LSTM cell with the sine as its activation: a tiled kernel against the plain formula.

  Both programs take inputs x [4096, 1024], hidden state h and cell state c [4096, 2048], stacked weights
  w_ih [8192, 1024] and w_hh [8192, 2048] and stacked biases b_ih, b_hh [8192]; the 8192 stacked rows are the forget,
  input, candidate and output groups of 2048. With
      pre(p, n) = Σ_k x(p,k)·w_ih(n,k) + Σ_k h(p,k)·w_hh(n,k) + b_ih(n) + b_hh(n)
  and σ the logistic function, both return
      c'(p, q) = c(p,q)·σ(pre(p, q)) + sin(pre(p, 4096+q))·σ(pre(p, 2048+q)),    h'(p, q) = σ(pre(p, 6144+q))·sin(c'(p, q)).

  The reference forms all 8192 columns at once as (x·w_ihᵀ + b_ih) + (h·w_hhᵀ + b_hh), cuts them into the four groups,
  and spells σ(t) as 1 / (1 + e^(-t)). The kernel first cuts the weights and the once-summed bias b_ih + b_hh into the
  four groups, narrows the float format of the activations and weights (no change over the extended reals), and then
  works tile by tile — 4 tiles of 1024 batch rows by 8 tiles of 256 state columns — computing in each tile, per gate,
  (x·wᵀ + h·uᵀ) + bias with products that contract the second axis of both operands, and σ as one operation.

  Over the extended reals the two agree entry by entry: the logistic operation IS 1 / (1 + e^(-t)) at every extended
  real, the sine is one function on both sides, and the two groupings of the pre-activation differ by
  (a + b) + (c + d) = (a + c) + (b + d), which needs only commutativity and associativity of addition — true on all of
  the extended reals — so the precondition (finite inputs) is never opened. The kernel's side is: each tile's fifteen
  blocks are the matching pieces of the arrays, so the tile's results are c' and h' restricted to the tile, and the 32
  tiles cover the two output arrays. The three frames are the generated ones (the reference's being its generated run
  with the results dropped), and the idealization rewrote nothing, so that conjunct is trivial.
-/
import proofs.«159760_j5712306503741_1_alg».proof.Defs
import proofs.«159760_j5712306503741_1_alg».proof.Proof.Gen.Kernel
import proofs.«159760_j5712306503741_1_alg».proof.Proof.Gen.Kernel.Skeleton
import proofs.«159760_j5712306503741_1_alg».proof.Proof.Gen.Kernel.Launch
import proofs.«159760_j5712306503741_1_alg».proof.Proof.Gen.Kernel.Points
import proofs.«159760_j5712306503741_1_alg».proof.Proof.Gen.Kernel.Frame
import proofs.«159760_j5712306503741_1_alg».proof.Proof.Gen.KernelIdeal
import proofs.«159760_j5712306503741_1_alg».proof.Proof.Gen.KernelIdeal.Skeleton
import proofs.«159760_j5712306503741_1_alg».proof.Proof.Gen.KernelIdeal.Launch
import proofs.«159760_j5712306503741_1_alg».proof.Proof.Gen.KernelIdeal.Points
import proofs.«159760_j5712306503741_1_alg».proof.Proof.Gen.KernelIdeal.Frame
import proofs.«159760_j5712306503741_1_alg».proof.Proof.Gen.ReferenceIdeal
import proofs.«159760_j5712306503741_1_alg».proof.Proof.Gen.Pre_finite_inputs
import proofs.«159760_j5712306503741_1_alg».proof.Proof.Gen.KernelIdeal.Value
import proofs.«159760_j5712306503741_1_alg».proof.Proof.Gen.ReferenceIdeal.Run
import proofs.«159760_j5712306503741_1_alg».proof.Proof.Gen.ReferenceIdeal.Read
import proofs.«159760_j5712306503741_1_alg».proof.Proof.LstmSpec
import proofs.«159760_j5712306503741_1_alg».proof.Proof.RefIsSpec
import proofs.«159760_j5712306503741_1_alg».proof.Proof.KernelFlush
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- And the reference: its run, with what it says about the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the seven arguments the kernel and the reference both end with the new hidden state and
    the new cell state of those arguments: the kernel tile by tile, the reference by its formula read stage by stage. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v38_eq, Cert.ReferenceIdeal.RefSpec.ref_newH, h0, h1, h2, h3, h4, h5, h6]
  · obtain ⟨h0, h1, h2, h3, h4, h5, h6⟩ := hagree c
    refine (Cert.ReferenceIdeal.Read.val_main_v30_eq _ _ _ _ _ _ _).trans ?_
    rw [Cert.ReferenceIdeal.RefSpec.ref_newC, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
